-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x3 : Shape := ⟨2, ![4096, 3]⟩
abbrev S512x3 : Shape := ⟨2, ![512, 3]⟩
abbrev S512 : Shape := ⟨1, ![512]⟩
abbrev S1 : Shape := ⟨1, ![1]⟩
abbrev S_ : Shape := ⟨0, ![]⟩

class Facts : Prop where
  bcast_S_S4096x3 : S_.BroadcastsInDim S4096x3 (![] : Fin 0 → Fin S4096x3.rank)
  reducesTo_S4096x3_S_d0_1 : S4096x3.ReducesTo [0, 1] S_
  h_S_ : 0 < S_.numel
  bcast_S_S512x3 : S_.BroadcastsInDim S512x3 (![] : Fin 0 → Fin S512x3.rank)
  reducesTo_S512x3_S_d0_1 : S512x3.ReducesTo [0, 1] S_
  bcast_S_S512 : S_.BroadcastsInDim S512 (![] : Fin 0 → Fin S512.rank)
  reducesTo_S512_S_d0 : S512.ReducesTo [0] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S4096x3 .f32) (main_arg1 : FVec F S4096x3 .f32) (main_arg2 : FVec F S512x3 .f32) (main_arg3 : FVec F S512 .f32) (main_arg4 : FVec F S1 .f32) : IVec S_ 1 :=
  let main_v0 : FVec F S4096x3 .f32 := Host.absf main_arg0
  let main_cst : FVec F S_ .f32 := constant S_ .f32 0x7F800000#32
  let main_v1 : FVec F S4096x3 .f32 := broadcastInDim S4096x3 ![] bcast_S_S4096x3 main_cst
  let main_v2 : IVec S4096x3 1 := cmpf .olt main_v0 main_v1
  let main_c : IVec S_ 1 := constantI S_ 1 1#1
  let main_v3 : IVec S_ 1 := (fun x v => Host.reduce IntOp.andi x v reducesTo_S4096x3_S_d0_1 h_S_) main_v2 main_c
  let main_v4 : FVec F S4096x3 .f32 := Host.absf main_arg1
  let main_cst_0 : FVec F S_ .f32 := constant S_ .f32 0x7F800000#32
  let main_v5 : FVec F S4096x3 .f32 := broadcastInDim S4096x3 ![] bcast_S_S4096x3 main_cst_0
  let main_v6 : IVec S4096x3 1 := cmpf .olt main_v4 main_v5
  let main_c_1 : IVec S_ 1 := constantI S_ 1 1#1
  let main_v7 : IVec S_ 1 := (fun x v => Host.reduce IntOp.andi x v reducesTo_S4096x3_S_d0_1 h_S_) main_v6 main_c_1
  let main_v8 : IVec S_ 1 := andi main_v3 main_v7
  let main_v9 : FVec F S512x3 .f32 := Host.absf main_arg2
  let main_cst_2 : FVec F S_ .f32 := constant S_ .f32 0x7F800000#32
  let main_v10 : FVec F S512x3 .f32 := broadcastInDim S512x3 ![] bcast_S_S512x3 main_cst_2
  let main_v11 : IVec S512x3 1 := cmpf .olt main_v9 main_v10
  let main_c_3 : IVec S_ 1 := constantI S_ 1 1#1
  let main_v12 : IVec S_ 1 := (fun x v => Host.reduce IntOp.andi x v reducesTo_S512x3_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_v13 main_v16
-- ==== Kernel.lean ====
abbrev S4096x3 : Shape := ⟨2, ![4096, 3]⟩
abbrev S512x3 : Shape := ⟨2, ![512, 3]⟩
abbrev S512 : Shape := ⟨1, ![512]⟩
abbrev S1 : Shape := ⟨1, ![1]⟩
abbrev S_ : Shape := ⟨0, ![]⟩
abbrev S3x512 : Shape := ⟨2, ![3, 512]⟩
abbrev S4096x512 : Shape := ⟨2, ![4096, 512]⟩
abbrev S1x512 : Shape := ⟨2, ![1, 512]⟩
abbrev S4096x1024 : Shape := ⟨2, ![4096, 1024]⟩
abbrev S1024x4096 : Shape := ⟨2, ![1024, 4096]⟩
abbrev S4096x4096 : Shape := ⟨2, ![4096, 4096]⟩
abbrev S1024x1024 : Shape := ⟨2, ![1024, 1024]⟩

abbrev nBuf : Space → Nat
  | .hbm => 36
  | .vmem => 6
  | .smem => 0
  | _ => 0

abbrev bufTy : (tb : Table) → Fin (tcTables nBuf tb) → BufTy
  | .hbm, ⟨0, _⟩ => ⟨S4096x3, .f32⟩
  | .hbm, ⟨1, _⟩ => ⟨S4096x3, .f32⟩
  | .hbm, ⟨2, _⟩ => ⟨S512x3, .f32⟩
  | .hbm, ⟨3, _⟩ => ⟨S512, .f32⟩
  | .hbm, ⟨4, _⟩ => ⟨S1, .f32⟩
  | .hbm, ⟨5, _⟩ => ⟨S_, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S3x512, .f32⟩
  | .hbm, ⟨10, _⟩ => ⟨S4096x512, .f32⟩
  | .hbm, ⟨11, _⟩ => ⟨S3x512, .f32⟩
  | .hbm, ⟨12, _⟩ => ⟨S4096x512, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S4096x512, .f32⟩
  | .hbm, ⟨19, _⟩ => ⟨S1x512, .f32⟩
  | .hbm, ⟨20, _⟩ => ⟨S4096x512, .f32⟩
  | .hbm, ⟨21, _⟩ => ⟨S4096x512, .f32⟩
  | .hbm, ⟨22, _⟩ => ⟨S4096x512, .f32⟩
  | .hbm, ⟨23, _⟩ => ⟨S1x512, .f32⟩
  | .hbm, ⟨24, _⟩ => ⟨S4096x512, .f32⟩
  | .hbm, ⟨25, _⟩ => ⟨S4096x512, .f32⟩
  | .hbm, ⟨26, _⟩ => ⟨S4096x512, .f32⟩
  | .hbm, ⟨27, _⟩ => ⟨S4096x512, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S1024x4096, .f32⟩
  | .hbm, ⟨33, _⟩ => ⟨S4096x1024, .bf16⟩
  | .hbm, ⟨34, _⟩ => ⟨S1024x4096, .bf16⟩
  | .hbm, ⟨35, _⟩ => ⟨S4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S_S512 : S_.BroadcastsInDim S512 (![] : Fin 0 → Fin S512.rank)
  transposes_S512x3_S3x512_1_0 : S512x3.Transposes [1, 0] S3x512
  reducesTo_S512_S_d0 : S512.ReducesTo [0] S_
  h_S_ : 0 < S_.numel
  shapeCasts_S1_S_ : S1.ShapeCasts S_
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  concatenates_S4096x512_S4096x512_S4096x1024_d1 : Shape.Concatenates [S4096x512, S4096x512] S4096x1024 1
  bcast_S_S4096x1024 : S_.BroadcastsInDim S4096x1024 (![] : Fin 0 → Fin S4096x1024.rank)
  transposes_S4096x1024_S1024x4096_1_0 : S4096x1024.Transposes [1, 0] S1024x4096
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  dot_S4096x3_S3x512_S4096x512_1_0_0_1_n_n_wf : DotDims.WF S4096x3 S3x512 S4096x512 [1] [0] [0] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .bf16 = 32 ∨ (Rect.block (s := S4096x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x4096.size a
  hwx0_1 : ∀ i : grid0.Coords, EltTy.bits .bf16 = 32 ∨ (Rect.block (s := S1024x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .f32 = 32 ∨ (Rect.block (s := S4096x4096) S1024x1024.size (cc0_transform_2 i) (hinb0_2 i)).WholeWords (EltTy.packing .f32)

variable [Facts₀]

def dot_S4096x3_S3x512_S4096x512_1_0_0_1_n_n : DotDims S4096x3 S3x512 S4096x512 where
  lhsContracting := [1]
  rhsContracting := [0]
  lhsNonContracting := [0]
  rhsNonContracting := [1]
  lhsBatch := []
  rhsBatch := []
  wf := dot_S4096x3_S3x512_S4096x512_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v26) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v28) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x3 : Shape := ⟨2, ![4096, 3]⟩
abbrev S512x3 : Shape := ⟨2, ![512, 3]⟩
abbrev S512 : Shape := ⟨1, ![512]⟩
abbrev S1 : Shape := ⟨1, ![1]⟩
abbrev S_ : Shape := ⟨0, ![]⟩
abbrev S3x512 : Shape := ⟨2, ![3, 512]⟩
abbrev S4096x512 : Shape := ⟨2, ![4096, 512]⟩
abbrev S1x512 : Shape := ⟨2, ![1, 512]⟩
abbrev S512x4096 : Shape := ⟨2, ![512, 4096]⟩
abbrev S4096x4096 : Shape := ⟨2, ![4096, 4096]⟩

abbrev nBuf : Space → Nat
  | .hbm => 36
  | .vmem => 0
  | .smem => 0
  | _ => 0

abbrev bufTy : (tb : Table) → Fin (tcTables nBuf tb) → BufTy
  | .hbm, ⟨0, _⟩ => ⟨S4096x3, .f32⟩
  | .hbm, ⟨1, _⟩ => ⟨S4096x3, .f32⟩
  | .hbm, ⟨2, _⟩ => ⟨S512x3, .f32⟩
  | .hbm, ⟨3, _⟩ => ⟨S512, .f32⟩
  | .hbm, ⟨4, _⟩ => ⟨S1, .f32⟩
  | .hbm, ⟨5, _⟩ => ⟨S_, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S3x512, .f32⟩
  | .hbm, ⟨10, _⟩ => ⟨S4096x512, .f32⟩
  | .hbm, ⟨11, _⟩ => ⟨S3x512, .f32⟩
  | .hbm, ⟨12, _⟩ => ⟨S4096x512, .f32⟩
  | .hbm, ⟨13, _⟩ => ⟨S4096x512, .f32⟩
  | .hbm, ⟨14, _⟩ => ⟨S1x512, .f32⟩
  | .hbm, ⟨15, _⟩ => ⟨S4096x512, .f32⟩
  | .hbm, ⟨16, _⟩ => ⟨S4096x512, .f32⟩
  | .hbm, ⟨17, _⟩ => ⟨S4096x512, .f32⟩
  | .hbm, ⟨18, _⟩ => ⟨S512x4096, .f32⟩
  | .hbm, ⟨19, _⟩ => ⟨S4096x4096, .f32⟩
  | .hbm, ⟨20, _⟩ => ⟨S4096x512, .f32⟩
  | .hbm, ⟨21, _⟩ => ⟨S1x512, .f32⟩
  | .hbm, ⟨22, _⟩ => ⟨S4096x512, .f32⟩
  | .hbm, ⟨23, _⟩ => ⟨S4096x512, .f32⟩
  | .hbm, ⟨24, _⟩ => ⟨S4096x512, .f32⟩
  | .hbm, ⟨25, _⟩ => ⟨S512x4096, .f32⟩
  | .hbm, ⟨26, _⟩ => ⟨S4096x4096, .f32⟩
  | .hbm, ⟨27, _⟩ => ⟨S4096x4096, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S4096x4096, .f32⟩
  | .hbm, ⟨33, _⟩ => ⟨S4096x4096, .f32⟩
  | .hbm, ⟨34, _⟩ => ⟨S4096x4096, .f32⟩
  | .hbm, ⟨35, _⟩ => ⟨S4096x4096, .f32⟩
  | _, _ => ⟨S4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]

class Facts₀ : Prop where
  bcast_S_S512 : S_.BroadcastsInDim S512 (![] : Fin 0 → Fin S512.rank)
  transposes_S512x3_S3x512_1_0 : S512x3.Transposes [1, 0] S3x512
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  transposes_S4096x512_S512x4096_1_0 : S4096x512.Transposes [1, 0] S512x4096
  reducesTo_S512_S_d0 : S512.ReducesTo [0] S_
  h_S_ : 0 < S_.numel
  shapeCasts_S1_S_ : S1.ShapeCasts S_
  bcast_S_S4096x4096 : S_.BroadcastsInDim S4096x4096 (![] : Fin 0 → Fin S4096x4096.rank)
  dot_S4096x3_S3x512_S4096x512_1_0_0_1_n_n_wf : DotDims.WF S4096x3 S3x512 S4096x512 [1] [0] [0] [1] [] []
  dot_S4096x512_S512x4096_S4096x4096_1_0_0_1_n_n_wf : DotDims.WF S4096x512 S512x4096 S4096x4096 [1] [0] [0] [1] [] []

variable [Facts₀]

def dot_S4096x3_S3x512_S4096x512_1_0_0_1_n_n : DotDims S4096x3 S3x512 S4096x512 where
  lhsContracting := [1]
  rhsContracting := [0]
  lhsNonContracting := [0]
  rhsNonContracting := [1]
  lhsBatch := []
  rhsBatch := []
  wf := dot_S4096x3_S3x512_S4096x512_1_0_0_1_n_n_wf
def dot_S4096x512_S512x4096_S4096x4096_1_0_0_1_n_n : DotDims S4096x512 S512x4096 S4096x4096 where
  lhsContracting := [1]
  rhsContracting := [0]
  lhsNonContracting := [0]
  rhsNonContracting := [1]
  lhsBatch := []
  rhsBatch := []
  wf := dot_S4096x512_S512x4096_S4096x4096_1_0_0_1_n_n_wf

class Facts : Prop extends Facts₀ where

variable [Facts]
-- ==== Proof.FiniteInputs.lean ====
/-
  What the precondition gives: every entry of every input array is a real number.

  The precondition is the conjunction, over the five inputs, of "every entry x has |x| < +infinity". On the
  extended reals |x| is max x (-x), which is +infinity exactly when x is one of the two infinities; so the
  strict bound says x is neither, that is, x is the image of a real. The rest of the certificate only ever
  uses this form: for each input array a function into the reals whose image it is.
-/
import proofs.«124725_j83786222010713_1_alg».proof.Pre_finite_inputs
import Idealize.ShloMosaic.PureOps.Ideal.Laws
import Idealize.ShloMosaic.Lib.ReduceAll
import Idealize.ShloMosaic.Lib.Affine

noncomputable section

namespace Cert.FiniteInputs

open Idealize.ShloMosaic Cert.Pre_finite_inputs

/-- The word of the bound is +infinity. -/
theorem bound_eq_top : Ideal.ofBits .f32 0x7F800000#32 = (⊤ : EReal) := by
  simp [Ideal.ofBits, Ideal.ieee]

/-- A truth value as a one-bit word is the word 1 exactly when it is true. -/
theorem ofBool_eq_one (b : Bool) : BitVec.ofBool b = 1#1 ↔ b = true := by cases b <;> decide

/-- ONE ENTRY. An extended real whose absolute value is strictly below +infinity is a real number. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have hlt : max x (-x) < (⊤ : EReal) := by
    have h' : Ideal.cmp .olt (max x (-x)) (Ideal.ofBits .f32 0x7F800000#32) = 1#1 := h
    rw [bound_eq_top] at h'
    simpa [Ideal.cmp, ofBool_eq_one] using h'
  induction x using EReal.rec with
  | bot => exact absurd hlt (by simp)
  | coe r => exact ⟨r, rfl⟩
  | top => exact absurd hlt (by simp)

instance : Subsingleton S_.Idx := ⟨fun a b => funext fun d => d.elim0⟩

variable [Facts]

/-- ALL ENTRIES. Under the precondition each of the five input arrays is, entry by entry, a real number. -/
theorem entries_real (a0 a1 : FVec Ideal S4096x3 .f32) (a2 : FVec Ideal S512x3 .f32) (a3 : FVec Ideal S512 .f32)
    (a4 : FVec Ideal S1 .f32) (h : fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have h0 := congrFun h (fun d => d.elim0)
  dsimp only [fn, fn_part1] at h0
  obtain ⟨h0123, h4⟩ := IntOp.andi_eq_one.1 h0
  obtain ⟨h012, h3⟩ := IntOp.andi_eq_one.1 h0123
  obtain ⟨h01, h2⟩ := IntOp.andi_eq_one.1 h012
  obtain ⟨h0', h1⟩ := IntOp.andi_eq_one.1 h01
  exact ⟨fun i => real_of_abs_lt _ (Host.reduce_andi_all _ _ _ _ _ h0' i),
    fun i => real_of_abs_lt _ (Host.reduce_andi_all _ _ _ _ _ h1 i),
    fun i => real_of_abs_lt _ (Host.reduce_andi_all _ _ _ _ _ h2 i),
    fun i => real_of_abs_lt _ (Host.reduce_andi_all _ _ _ _ _ h3 i),
    fun i => real_of_abs_lt _ (Host.reduce_andi_all _ _ _ _ _ h4 i)⟩

end Cert.FiniteInputs

end
-- ==== Proof.FeatureArrays.lean ====
/-
  The two arrays the matrix product is taken of, as functions of the five inputs.

  Before the product the program prepares, from x [4096,3], y [4096,3], the frequencies f [512,3], the
  eigenvalues lb [512] and the variance v [1]:

    w      = exp (-1/2 * lb)                                    the spectral weights            [512]
    x f^T, y f^T                                                the phases <f_l, x_n>, <f_l, y_m>  [4096,512]
    scale  = |v| / (sum of w)                                   one number
    left   = (cos (x f^T) * w  ++  sin (x f^T) * w) * scale     cosine then sine features of x  [4096,1024]
    right  = (cos (y f^T)      ++  sin (y f^T))^T               the same of y, transposed       [1024,4096]

  (++ lays the second array after the first along the feature axis.) The region's first operand array is
  `left` and its second is `right`, each narrowed to bf16 — which changes nothing where numbers are exact.
  This module only names these terms and shows that the arrays the region finds are these terms of the
  inputs as launched; nothing is computed here.
-/
import proofs.«124725_j83786222010713_1_alg».proof.Proof.Gen.KernelIdeal.Frame
import Idealize.ShloMosaic.Lib.StableHlo.Run

noncomputable section

namespace Cert.KernelIdeal.FeatureArrays

open Cert.KernelIdeal Cert.KernelIdeal.Gen Idealize.ShloMosaic Idealize.ShloMosaic.TcCoe Idealize.SL.Sem
open Idealize.ShloMosaic.StableHlo

variable {F : FTy → Type} [FloatOps F]

/-- The spectral weights `w_l = exp (-1/2 * lb_l)`. -/
def weights (lb : FVec F S512 .f32) : FVec F S512 .f32 :=
  Host.exp (mulf (broadcastInDim S512 ![] bcast_S_S512 (constant S_ .f32 0xBF000000#32)) lb)

/-- The phases of the points `p` against the frequencies: `(p f^T) (n, l) = <f_l, p_n>`. -/
def phases (p : FVec F S4096x3 .f32) (f : FVec F S512x3 .f32) : FVec F S4096x512 .f32 :=
  Host.dotGeneral dot_S4096x3_S3x512_S4096x512_1_0_0_1_n_n none p (transpose S3x512 [1, 0] f transposes_S512x3_S3x512_1_0)

/-- The weights repeated down the 4096 rows. -/
def weightRows (lb : FVec F S512 .f32) : FVec F S4096x512 .f32 :=
  broadcastInDim S4096x512 ![0, 1] bcast_S1x512_S4096x512_0_1 (broadcastInDim S1x512 ![1] bcast_S512_S1x512_1 (weights lb))

/-- The sum of the weights, from zero. -/
def weightSum (lb : FVec F S512 .f32) : FVec F S_ .f32 :=
  Host.reduceAdd (weights lb) (constant S_ .f32 0x00000000#32) reducesTo_S512_S_d0 h_S_

/-- `|v|`, the variance read as one number. -/
def absVariance (v : FVec F S1 .f32) : FVec F S_ .f32 :=
  Host.absf (shapeCast S_ v shapeCasts_S1_S_)

/-- The one number every left feature is scaled by: `|v|` over the sum of the weights. -/
def scale (lb : FVec F S512 .f32) (v : FVec F S1 .f32) : FVec F S_ .f32 :=
  Host.divf (absVariance v) (weightSum lb)

/-- The left array: the weighted cosine features of `x`, then its weighted sine features, all scaled. -/
def left (x : FVec F S4096x3 .f32) (f : FVec F S512x3 .f32) (lb : FVec F S512 .f32) (v : FVec F S1 .f32) :
    FVec F S4096x1024 .bf16 :=
  truncf .bf16
    (mulf
      (concatenate S4096x1024 1
        [⟨S4096x512, mulf (Host.cos (phases x f)) (weightRows lb)⟩,
         ⟨S4096x512, mulf (Host.sin (phases x f)) (weightRows lb)⟩]
        concatenates_S4096x512_S4096x512_S4096x1024_d1)
      (broadcastInDim S4096x1024 ![] bcast_S_S4096x1024 (scale lb v)))
    bitsLt_bf16_f32

/-- The right array: the cosine features of `y`, then its sine features, transposed. -/
def right (y : FVec F S4096x3 .f32) (f : FVec F S512x3 .f32) : FVec F S1024x4096 .bf16 :=
  truncf .bf16
    (transpose S1024x4096 [1, 0]
      (concatenate S4096x1024 1
        [⟨S4096x512, Host.cos (phases y f)⟩, ⟨S4096x512, Host.sin (phases y f)⟩]
        concatenates_S4096x512_S4096x512_S4096x1024_d1)
      transposes_S4096x1024_S1024x4096_1_0)
    bitsLt_bf16_f32

variable (m : (ℓ : Loc nD τ sig) → Buf (Elt F) ℓ)

set_option maxHeartbeats 2000000 in
/-- The region finds its first operand array holding `left` of the inputs as launched. -/
theorem first_operand (c : Dev nD) :
    (V m c main_v26 : (⟨S4096x1024, .bf16⟩ : BufTy).Contents (Elt F))
      = left (m ((c : Thread nD τ).loc main_arg0)) (m ((c : Thread nD τ).loc main_arg2))
          (m ((c : Thread nD τ).loc main_arg3)) (m ((c : Thread nD τ).loc main_arg4)) := by
  dsimp only [Gen.V, Gen.hostOps0]
  after_results
  rfl

set_option maxHeartbeats 2000000 in
/-- The region finds its second operand array holding `right` of the inputs as launched. -/
theorem second_operand (c : Dev nD) :
    (V m c main_v27 : (⟨S1024x4096, .bf16⟩ : BufTy).Contents (Elt F))
      = right (m ((c : Thread nD τ).loc main_arg1)) (m ((c : Thread nD τ).loc main_arg2)) := by
  dsimp only [Gen.V, Gen.hostOps0]
  after_results
  rfl

end Cert.KernelIdeal.FeatureArrays

end
-- ==== Proof.BlockProduct.lean ====
/-
  What one grid point computes, entry by entry.

  At a grid point the body loads a 1024-by-1024 block of the left array and a 1024-by-1024 block of the
  right array and stores their matrix product, accumulated from zero. On exact numbers that is the textbook
  product: entry (p, q) of the stored block is the sum over k = 0 .. 1023 of (left block) (p, k) times
  (right block) (k, q). The two casts of a block to its own shape change nothing, and zero plus a sum is
  the sum.
-/
import proofs.«124725_j83786222010713_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.BlockProduct

open Cert.KernelIdeal Cert.KernelIdeal.Gen Idealize.ShloMosaic
open Idealize.ShloMosaic.ValueIdx (ix2)

/-- The left factor of term `k` of entry `(p, q)` sits at row `p`, column `k`. -/
theorem left_index (p q k : Fin 1024) :
    (dot_S1024x1024_S1024x1024_S1024x1024_1_0_0_1_n_n).lhsIdx (ix2 p q)
        ((ValueIdx.contrEquiv1 dot_S1024x1024_S1024x1024_S1024x1024_1_0_0_1_n_n 1024 rfl rfl).symm k)
      = ix2 p k := by
  have hk := ValueIdx.contrEquiv1_symm_val dot_S1024x1024_S1024x1024_S1024x1024_1_0_0_1_n_n 1024 rfl rfl k
  funext a
  apply Fin.ext
  match a with
  | ⟨0, _⟩ =>
    show ((dot_S1024x1024_S1024x1024_S1024x1024_1_0_0_1_n_n).lhsIdx (ix2 p q) _ 0).val = p.val
    unfold DotDims.lhsIdx
    rw [dif_neg (show ¬(0 : Fin S1024x1024.rank) ∈ (dot_S1024x1024_S1024x1024_S1024x1024_1_0_0_1_n_n).lhsBatch by decide),
      dif_pos (show (0 : Fin S1024x1024.rank) ∈ (dot_S1024x1024_S1024x1024_S1024x1024_1_0_0_1_n_n).lhsNonContracting by decide)]
    rfl
  | ⟨1, _⟩ =>
    exact ((dot_S1024x1024_S1024x1024_S1024x1024_1_0_0_1_n_n).lhsIdx_val_of_single rfl (ix2 p q) _).trans hk

/-- The right factor of term `k` of entry `(p, q)` sits at row `k`, column `q`. -/
theorem right_index (p q k : Fin 1024) :
    (dot_S1024x1024_S1024x1024_S1024x1024_1_0_0_1_n_n).rhsIdx (ix2 p q)
        ((ValueIdx.contrEquiv1 dot_S1024x1024_S1024x1024_S1024x1024_1_0_0_1_n_n 1024 rfl rfl).symm k)
      = ix2 k q := by
  have hk := ValueIdx.contrEquiv1_symm_val dot_S1024x1024_S1024x1024_S1024x1024_1_0_0_1_n_n 1024 rfl rfl k
  funext a
  apply Fin.ext
  match a with
  | ⟨0, _⟩ =>
    exact ((dot_S1024x1024_S1024x1024_S1024x1024_1_0_0_1_n_n).rhsIdx_val_of_single rfl (ix2 p q) _).trans hk
  | ⟨1, _⟩ =>
    show ((dot_S1024x1024_S1024x1024_S1024x1024_1_0_0_1_n_n).rhsIdx (ix2 p q) _ 1).val = q.val
    unfold DotDims.rhsIdx
    rw [dif_neg (show ¬(1 : Fin S1024x1024.rank) ∈ (dot_S1024x1024_S1024x1024_S1024x1024_1_0_0_1_n_n).rhsBatch by decide),
      dif_pos (show (1 : Fin S1024x1024.rank) ∈ (dot_S1024x1024_S1024x1024_S1024x1024_1_0_0_1_n_n).rhsNonContracting by decide)]
    rfl

/-- THE BODY'S RESULT AT AN ENTRY: the product of the two loaded blocks, row by column. -/
theorem payload_apply (x0 x1 : Vec Ideal S1024x1024 .bf16) (p q : Fin 1024) :
    k0_pay1 (F := Ideal) x0 x1 (ix2 p q) = ∑ k : Fin 1024, x0 (ix2 p k) * x1 (ix2 k q) := by
  unfold k0_pay1
  simp only [shapeCast_self]
  refine Eq.trans (Ideal.matmul_constant_zero_apply (φ₁ := .bf16) (φ₂ := .bf16)
    dot_S1024x1024_S1024x1024_S1024x1024_1_0_0_1_n_n none x0 x1 (ix2 p q)) ?_
  rw [← Equiv.sum_comp (ValueIdx.contrEquiv1 dot_S1024x1024_S1024x1024_S1024x1024_1_0_0_1_n_n 1024 rfl rfl).symm]
  refine Finset.sum_congr rfl fun k _ => ?_
  rw [left_index, right_index]

end Cert.KernelIdeal.BlockProduct

end
-- ==== Proof.ProductArray.lean ====
/-
  From the sixteen blocks to the whole array.

  The grid is 4 by 4. At point (p, q) the region stages rows 1024 p .. 1024 p + 1023 of the left array (all
  1024 of its columns), columns 1024 q .. 1024 q + 1023 of the right array (all 1024 of its rows), and
  writes back the 1024-by-1024 block of the result at block row p, block column q.

  So what the point writes is the corresponding block of ONE whole-array function, the full product
      P (n, m) = sum over k = 0 .. 1023 of left (n, k) * right (k, m):
  entry (r, c) of the block depends on row 1024 p + r of left and column 1024 q + c of right, and the body
  computes exactly that row-by-column sum from its two staged blocks (the per-point lemma of the previous
  module). Every index (n, m) of the result lies in the block of the point (n / 1024, m / 1024), so the
  blocks cover the array and after the run the array IS P of the two arrays the region found.
-/
import proofs.«124725_j83786222010713_1_alg».proof.Proof.Gen.KernelIdeal.Value
import proofs.«124725_j83786222010713_1_alg».proof.Proof.BlockProduct
import Idealize.ShloMosaic.Lib.ValueIdx

noncomputable section

namespace Cert.KernelIdeal.ProductArray

open Cert.KernelIdeal Cert.KernelIdeal.Gen Cert.KernelIdeal.Value Idealize.ShloMosaic Idealize.ShloMosaic.TcCoe Idealize.SL.Sem
open Idealize.ShloMosaic.Pipeline (Dat)

/-- In the left array: the row of result index `i`, column `k`. -/
abbrev leftAt (i : S4096x4096.Idx) (k : Fin 1024) : S4096x1024.Idx := fun a => match a with
  | ⟨0, _⟩ => ⟨(i 0).val, (i 0).isLt⟩
  | ⟨1, _⟩ => ⟨k.val, k.isLt⟩

/-- In the right array: row `k`, the column of result index `i`. -/
abbrev rightAt (i : S4096x4096.Idx) (k : Fin 1024) : S1024x4096.Idx := fun a => match a with
  | ⟨0, _⟩ => ⟨k.val, k.isLt⟩
  | ⟨1, _⟩ => ⟨(i 1).val, (i 1).isLt⟩

/-- THE WHOLE PRODUCT of a [4096,1024] array and a [1024,4096] array, entry by entry. -/
def product (L : S4096x1024.Idx → EReal) (R : S1024x4096.Idx → EReal) : S4096x4096.Idx → EReal :=
  fun i => ∑ k : Fin 1024, L (leftAt i k) * R (rightAt i k)

variable (m : (ℓ : Loc nD τ sig) → Buf (Elt Ideal) ℓ) (ρ : Dev nD → PrngReg)

/-- The left array as the region finds it, as a function into the extended reals. -/
abbrev leftArr (c : Dev nD) : S4096x1024.Idx → EReal := V m c main_v26

/-- The right array as the region finds it, as a function into the extended reals. -/
abbrev rightArr (c : Dev nD) : S1024x4096.Idx → EReal := V m c main_v27

theorem zero_offsets : (![0, 0] : Fin 2 → Nat) = fun _ => 0 := funext fun a => by fin_cases a <;> rfl

/-- The three index maps over the sixteen points: the left window follows the result's block row and stays at
    block column 0; the right window stays at block row 0 and follows the result's block column; the
    result's block coordinates are at most 3. -/
theorem block_indices : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = win0_2.index t (1 : Fin 2)
    ∧ win0_2.index t (0 : Fin 2) ≤ 3 ∧ win0_2.index t (1 : Fin 2) ≤ 3 :=
  (by decide +kernel : ∀ t : Fin grid0.N, _)

/-- Every one of the 4 by 4 blocks of the result is some point's. -/
theorem every_block : ∀ (q0 q1 : Fin 4), ∃ t : Fin cfg0.N, win0_2.index t = ![q0.val, q1.val] :=
  (by decide +kernel : ∀ (q0 q1 : Fin 4), ∃ t : Fin grid0.N, win0_2.index t = ![q0.val, q1.val])

/-- WHAT POINT `t` WRITES BACK is block `t` of the whole product of the two arrays the region found. -/
theorem flushed_eq (c : Dev nD) (t : Fin cfg0.N) :
    (dats m 0 c).flushed 2 t
      = ((cfg0.win 2).blk t).view.read (Elt Ideal) (product (leftArr m c) (rightArr m c)) := by
  show (cfg0.win 2).cut (grid0.coords t) ((dats m 0 c).after 2 t) = _
  rw [after0_2]
  unfold out0_2
  rw [View.canon_unit_zero zero_offsets]
  simp only [View.ld_unit_zero (S := S1024x1024) zero_offsets]
  obtain ⟨e0, e1, e2, e3, -, -⟩ := block_indices t
  refine funext fun (j : S1024x1024.Idx) => ?_
  obtain ⟨p, q, rfl⟩ : ∃ (p q : Fin 1024), j = ValueIdx.ix2 p q := ⟨j 0, j 1, ValueIdx.eq_ix2 j⟩
  show k0_pay1 (F := Ideal) (iblk m c 0 t) (iblk m c 1 t) (ValueIdx.ix2 p q)
      = ∑ k : Fin 1024, leftArr m c (leftAt (((cfg0.win 2).blk t).view.emb (ValueIdx.ix2 p q)) k)
          * rightArr m c (rightAt (((cfg0.win 2).blk t).view.emb (ValueIdx.ix2 p q)) k)
  refine (BlockProduct.payload_apply (iblk m c 0 t) (iblk m c 1 t) p q).trans ?_
  refine Finset.sum_congr rfl fun k _ => ?_
  have h0 : ((cfg0.win 0).blk t).view.emb (ValueIdx.ix2 p k)
      = leftAt (((cfg0.win 2).blk t).view.emb (ValueIdx.ix2 p q)) k := by
    funext a; apply Fin.ext
    match a with
    | ⟨0, _⟩ => show win0_0.index t (0 : Fin 2) * 1024 + 1 * p.val = win0_2.index t (0 : Fin 2) * 1024 + 1 * p.val; omega
    | ⟨1, _⟩ => show win0_0.index t (1 : Fin 2) * 1024 + 1 * k.val = k.val; omega
  have h1 : ((cfg0.win 1).blk t).view.emb (ValueIdx.ix2 k q)
      = rightAt (((cfg0.win 2).blk t).view.emb (ValueIdx.ix2 p q)) k := by
    funext a; apply Fin.ext
    match a with
    | ⟨0, _⟩ => show win0_1.index t (0 : Fin 2) * 1024 + 1 * k.val = k.val; omega
    | ⟨1, _⟩ => show win0_1.index t (1 : Fin 2) * 1024 + 1 * q.val = win0_2.index t (1 : Fin 2) * 1024 + 1 * q.val; omega
  show leftArr m c (((cfg0.win 0).blk t).view.emb (ValueIdx.ix2 p k))
      * rightArr m c (((cfg0.win 1).blk t).view.emb (ValueIdx.ix2 k q)) = _
  rw [h0, h1]

/-- An index of the result is in point `t`'s block iff each coordinate is in the block's range on its axis. -/
theorem mem_block (t : Fin cfg0.N) (i : S4096x4096.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v28).slice (win0_2.rect t)).set ↔ _
  rw [View.set_slice_whole, Rect.mem_set_unit]
  exact Iff.rfl

/-- THE COVER: every index of the result is in the block of the point at its coordinates divided by 1024. -/
theorem covered (i : S4096x4096.Idx) :
    ∃ t : Fin cfg0.N, (cfg0.win 2).flush t = true ∧ i ∈ ((cfg0.win 2).blk t).view.set := by
  have hi0 : (i 0).val < 4096 := (i 0).isLt
  have hi1 : (i 1).val < 4096 := (i 1).isLt
  obtain ⟨t, ht⟩ := every_block ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_block]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- THE ARRAY after the run is the whole product of the two arrays the region found. -/
theorem final (c : Dev nD) :
    (dats m 0 c).arrAt 2 cfg0.N = product (leftArr m c) (rightArr m c) :=
  (dats m 0 c).arrAt_eq_of_cover 2 (product (leftArr m c) (rightArr m c)) (fun t _ => flushed_eq m c t) covered

/-- The run, read: the result array ends at the whole product, the five inputs unchanged. -/
theorem run : θ_run defs (onTc (τ := τ) (main (F := Ideal))) ⟨m, fun _ => 0, ρ⟩ fun r => ∀ c : Dev nD,
      r.2.mem ((c : Thread nD τ).loc main_v28) = product (leftArr m c) (rightArr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.ProductArray

end
-- ==== Proof.LibRealValued.lean ====
/-
  Extended reals that are real numbers, and what keeps them so.

  A program read on exact numbers computes on the extended reals, where the usual laws of arithmetic hold
  only away from the infinities (a factor does not distribute over a sum that mixes the two infinities; a
  quotient is a product with the reciprocal only for a nonzero finite divisor). A proof that needs such a law
  therefore carries, through the program's operations, the fact that every quantity met on the way is the
  image of a real number. This file is that bookkeeping, free of any particular program:

    * `IsReal z`: z is the image of a real;  `IsPos z`: of a positive real;
    * reals are closed under products, sums, finite sums, cosine, sine and the absolute value `max z (-z)`;
      the exponential of a real is a POSITIVE real;
    * zero plus a sum of positive reals over a nonempty finite index type is a NONZERO real (what makes a
      normalizing sum of exponentials safe to divide by);
    * `coe_sum`: the inclusion of the reals commutes with a finite sum.
-/
import Idealize.ShloMosaic.PureOps.Ideal.Laws

noncomputable section

namespace Cert.RealValued

open Idealize.ShloMosaic

/-- The inclusion of the reals in the extended reals commutes with a finite sum. -/
theorem coe_sum {ι : Type} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- `z` is the image of a real number. -/
def IsReal (z : EReal) : Prop := ∃ r : ℝ, z = (r : EReal)

/-- `z` is the image of a positive real number. -/
def IsPos (z : EReal) : Prop := ∃ r : ℝ, 0 < r ∧ z = (r : EReal)

theorem IsPos.isReal {z : EReal} (h : IsPos z) : IsReal z := let ⟨r, _, e⟩ := h; ⟨r, e⟩

theorem isReal_coe (r : ℝ) : IsReal (r : EReal) := ⟨r, rfl⟩

theorem isReal_zero : IsReal (0 : EReal) := ⟨0, rfl⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

theorem IsReal.add {a b : EReal} (ha : IsReal a) (hb : IsReal b) : IsReal (a + b) := by
  obtain ⟨r, rfl⟩ := ha; obtain ⟨s, rfl⟩ := hb; exact ⟨r + s, (EReal.coe_add r s).symm⟩

/-- A finite sum of reals is a real. -/
theorem isReal_sum {ι : Type} (s : Finset ι) (f : ι → EReal) (h : ∀ i ∈ s, IsReal (f i)) : IsReal (∑ i ∈ s, f i) := by
  classical
  induction s using Finset.induction_on with
  | empty => simpa using isReal_zero
  | insert i s hi ih =>
    rw [Finset.sum_insert hi]
    exact (h i (Finset.mem_insert_self i s)).add (ih fun j hj => h j (Finset.mem_insert_of_mem hj))

/-- The cosine of a real is a real. -/
theorem IsReal.cos {a : EReal} (ha : IsReal a) : IsReal (Ideal.cos a) := by
  obtain ⟨r, rfl⟩ := ha; exact ⟨Real.cos r, Ideal.cos_coe r⟩

/-- The sine of a real is a real. -/
theorem IsReal.sin {a : EReal} (ha : IsReal a) : IsReal (Ideal.sin a) := by
  obtain ⟨r, rfl⟩ := ha; exact ⟨Real.sin r, Ideal.sin_coe r⟩

/-- The exponential of a real is a POSITIVE real. -/
theorem IsReal.exp_pos {a : EReal} (ha : IsReal a) : IsPos (Ideal.exp a) := by
  obtain ⟨r, rfl⟩ := ha; exact ⟨Real.exp r, Real.exp_pos r, Ideal.exp_coe r⟩

/-- The absolute value `max z (-z)` of a real is a real. -/
theorem IsReal.abs {a : EReal} (ha : IsReal a) : IsReal (max a (-a)) := by
  obtain ⟨r, rfl⟩ := ha
  refine ⟨max r (-r), ?_⟩
  rw [← EReal.coe_neg]
  exact (EReal.coe_strictMono.monotone.map_max).symm

/-- Zero plus a sum of positive reals over a nonempty finite index type is a NONZERO real. -/
theorem zero_add_sum_pos {ι : Type} [Fintype ι] [Nonempty ι] (f : ι → EReal) (h : ∀ i, IsPos (f i)) :
    ∃ s : ℝ, s ≠ 0 ∧ (0 : EReal) + ∑ i, f i = (s : EReal) := by
  classical
  choose r hr using h
  have e : (∑ i, f i) = ((∑ i, r i : ℝ) : EReal) := by
    rw [coe_sum]; exact Finset.sum_congr rfl fun i _ => (hr i).2
  refine ⟨∑ i, r i, ne_of_gt (Finset.sum_pos (fun i _ => (hr i).1) Finset.univ_nonempty), ?_⟩
  rw [zero_add, e]

end Cert.RealValued

end
-- ==== Proof.SpectralSum.lean ====
/-
  The arithmetic that joins the two programs, with no program in sight.

  Fix a row n of x and a row m of y. Write, for an eigenspace l (there are 512),
    a l  = cos <f_l, x_n> * w_l      b l  = sin <f_l, x_n> * w_l
    a' l = cos <f_l, y_m>            b' l = sin <f_l, y_m>
  and let V = |variance|, S = the sum of the weights w_l.

  One program scales every feature by V / S first and then takes ONE inner product of length 1024
  over the cosine features followed by the sine features; the other takes the two inner products of
  length 512, adds them, multiplies by V and divides by S last:

    sum_k  (feature k * (V / S)) * feature' k   =   (V * (sum_l a l * a' l + sum_l b l * b' l)) / S.

  Two facts make them equal. A sum over the 1024 positions of a concatenation is the sum over its first
  half plus the sum over its second half (`sum_halves`). And a common factor moves out of a finite sum of
  REAL numbers, while a quotient by a nonzero real is the product with its reciprocal
  (`scaled_sums_eq`). The second fact is false on the extended reals in general (a factor does not
  distribute over a sum that mixes the two infinities), which is why every quantity below is the image
  of a real number: the certificate's precondition supplies exactly that.
-/
import proofs.«124725_j83786222010713_1_alg».proof.Proof.LibRealValued
import Mathlib.Algebra.BigOperators.Fin

noncomputable section

namespace Cert.SpectralSum

open Idealize.ShloMosaic Cert.RealValued

/-- A sum over the 1024 positions of two pieces of length 512 laid end to end: the first piece's sum plus
    the second piece's, the second read 512 positions further on. -/
theorem sum_halves {M : Type} [AddCommMonoid M] (f : Fin 1024 → M) :
    ∑ k : Fin 1024, f k
      = (∑ l : Fin 512, f ⟨l.val, by omega⟩) + ∑ l : Fin 512, f ⟨l.val + 512, by omega⟩ := by
  have h := Fin.sum_univ_add (M := M) (a := 512) (b := 512) f
  refine h.trans (congrArg₂ (· + ·) ?_ ?_)
  · exact Finset.sum_congr rfl fun l _ => congrArg f (Fin.ext rfl)
  · exact Finset.sum_congr rfl fun l _ => congrArg f (Fin.ext (by show 512 + l.val = l.val + 512; omega))

/-- THE LAW, over the reals. The scale `V / S` applied to each left feature before the two inner products
    is the scale applied once to their sum: `V` times the sum, divided by `S`. -/
theorem scaled_sums_real {ι : Type} [Fintype ι] (a b a' b' : ι → ℝ) (V S : ℝ) :
    (∑ l, (a l * (V * (1 / S))) * a' l) + (∑ l, (b l * (V * (1 / S))) * b' l)
      = (V * ((∑ l, a l * a' l) + ∑ l, b l * b' l)) * (1 / S) := by
  rw [mul_add, add_mul, Finset.mul_sum, Finset.mul_sum, Finset.sum_mul, Finset.sum_mul]
  congr 1 <;> exact Finset.sum_congr rfl fun l _ => by ring

/-- THE LAW, on the extended reals at real arguments, with the quotient the instance's own `Ideal.div`: the
    form in which the two programs' results meet. `S ≠ 0` is what makes the quotient a product. -/
theorem scaled_sums_eq {ι : Type} [Fintype ι] (a b a' b' : ι → ℝ) (V S : ℝ) (hS : S ≠ 0) :
    (∑ l, ((a l : EReal) * Ideal.div (V : EReal) (S : EReal)) * (a' l : EReal))
        + (∑ l, ((b l : EReal) * Ideal.div (V : EReal) (S : EReal)) * (b' l : EReal))
      = Ideal.div ((V : EReal) * ((∑ l, (a l : EReal) * (a' l : EReal)) + ∑ l, (b l : EReal) * (b' l : EReal)))
          (S : EReal) := by
  rw [Ideal.div_coe hS, Ideal.div_coe hS]
  simp only [← EReal.coe_mul, ← coe_sum, ← EReal.coe_add]
  exact congrArg _ (scaled_sums_real a b a' b' V S)

/-- THE LAW for extended reals that ARE real: with every feature a real, `V` a real and `S` a nonzero real,
    scaling each left feature by `V / S` before the two inner products is scaling their sum by `V` and
    dividing by `S` after. The witnesses are chosen here. -/
theorem scaled_sums_of_real {ι : Type} [Fintype ι] (A B A' B' : ι → EReal) (V S : EReal)
    (hA : ∀ l, IsReal (A l)) (hB : ∀ l, IsReal (B l)) (hA' : ∀ l, IsReal (A' l)) (hB' : ∀ l, IsReal (B' l))
    (hV : IsReal V) (hS : ∃ s : ℝ, s ≠ 0 ∧ S = (s : EReal)) :
    (∑ l, (A l * Ideal.div V S) * A' l) + (∑ l, (B l * Ideal.div V S) * B' l)
      = Ideal.div (V * ((∑ l, A l * A' l) + ∑ l, B l * B' l)) S := by
  choose a ha using hA
  choose b hb using hB
  choose a' ha' using hA'
  choose b' hb' using hB'
  obtain ⟨v, rfl⟩ := hV
  obtain ⟨s, hs, rfl⟩ := hS
  simp only [ha, hb, ha', hb']
  exact scaled_sums_eq a b a' b' v s hs

end Cert.SpectralSum

end
-- ==== Proof.KernelEntry.lean ====
/-
  Entry (n, m) of the kernel's result, in the same terms as the reference's.

  The whole product of `left` and `right` at (n, m) is a sum over the 1024 feature positions k. Position
  k < 512 of `left` holds the weighted cosine feature l = k of x_n, scaled, and position k >= 512 holds the
  weighted sine feature l = k - 512, scaled; `right`, being a transpose, holds at (k, m) the cosine feature
  l = k of y_m for k < 512 and its sine feature l = k - 512 otherwise. Splitting the sum at 512 therefore gives
      sum_l ((cos <f_l,x_n> * w_l) * scale) * cos <f_l,y_m>  +  sum_l ((sin <f_l,x_n> * w_l) * scale) * sin <f_l,y_m>.
  Narrowing to bf16 is the identity on exact numbers.
-/
import proofs.«124725_j83786222010713_1_alg».proof.Proof.FeatureArrays
import proofs.«124725_j83786222010713_1_alg».proof.Proof.ProductArray
import proofs.«124725_j83786222010713_1_alg».proof.Proof.SpectralSum
import Idealize.ShloMosaic.Lib.Pipeline.Value
import Idealize.ShloMosaic.PureOps.Ideal.Laws

noncomputable section

namespace Cert.KernelIdeal.KernelEntry

open Cert.KernelIdeal Idealize.ShloMosaic Cert.KernelIdeal.FeatureArrays Cert.KernelIdeal.ProductArray

variable (x y : FVec Ideal S4096x3 .f32) (f : FVec Ideal S512x3 .f32) (lb : FVec Ideal S512 .f32) (v : FVec Ideal S1 .f32)

/-- In a [4096,512] feature array: the row of result index `i` (a point of x), eigenspace `l`. -/
abbrev rowAt (i : S4096x4096.Idx) (l : Fin 512) : S4096x512.Idx := fun a => match a with
  | ⟨0, _⟩ => ⟨(i 0).val, (i 0).isLt⟩
  | ⟨1, _⟩ => ⟨l.val, l.isLt⟩

/-- In a [4096,512] feature array: the column of result index `i` taken as a row (a point of y), eigenspace `l`. -/
abbrev colAt (i : S4096x4096.Idx) (l : Fin 512) : S4096x512.Idx := fun a => match a with
  | ⟨0, _⟩ => ⟨(i 1).val, (i 1).isLt⟩
  | ⟨1, _⟩ => ⟨l.val, l.isLt⟩

/-- The one index of a rank-0 array. -/
abbrev scalarIx : S_.Idx := fun a => a.elim0

/-- `left` at a position in its first half: the weighted cosine feature, scaled. -/
theorem left_cos (i : S4096x4096.Idx) (l : Fin 512) (k : Fin 1024) (hk : k.val = l.val) :
    left x f lb v (leftAt i k)
      = (mulf (Host.cos (phases x f)) (weightRows lb)) (rowAt i l) * scale lb v scalarIx := by
  unfold left
  show concatenate S4096x1024 1
        [⟨S4096x512, mulf (Host.cos (phases x f)) (weightRows lb)⟩, ⟨S4096x512, mulf (Host.sin (phases x f)) (weightRows lb)⟩]
        Facts₀.concatenates_S4096x512_S4096x512_S4096x1024_d1 (leftAt i k)
      * broadcastInDim S4096x1024 ![] Facts₀.bcast_S_S4096x1024 (scale lb v) (leftAt i k) = _
  exact congrArg₂ (· * ·)
    (concatenate_pair_apply_left (s₁ := S4096x512) (s₂ := S4096x512) 1 _ _ _ (leftAt i k) rfl (rowAt i l) (fun b => match b with
      | ⟨0, _⟩ => rfl
      | ⟨1, _⟩ => hk.symm))
    (broadcastInDim_apply _ Facts₀.bcast_S_S4096x1024 (scale lb v) (leftAt i k) scalarIx (fun a => a.elim0))

/-- `left` at a position in its second half: the weighted sine feature, scaled. -/
theorem left_sin (i : S4096x4096.Idx) (l : Fin 512) (k : Fin 1024) (hk : l.val + 512 = k.val) :
    left x f lb v (leftAt i k)
      = (mulf (Host.sin (phases x f)) (weightRows lb)) (rowAt i l) * scale lb v scalarIx := by
  unfold left
  show concatenate S4096x1024 1
        [⟨S4096x512, mulf (Host.cos (phases x f)) (weightRows lb)⟩, ⟨S4096x512, mulf (Host.sin (phases x f)) (weightRows lb)⟩]
        Facts₀.concatenates_S4096x512_S4096x512_S4096x1024_d1 (leftAt i k)
      * broadcastInDim S4096x1024 ![] Facts₀.bcast_S_S4096x1024 (scale lb v) (leftAt i k) = _
  exact congrArg₂ (· * ·)
    (concatenate_pair_apply_right (s₁ := S4096x512) (s₂ := S4096x512) 1 _ _ _ (leftAt i k) rfl rfl (rowAt i l)
      (fun b hb => by
        match b with
        | ⟨0, _⟩ => rfl
        | ⟨1, _⟩ => exact absurd rfl hb)
      hk)
    (broadcastInDim_apply _ Facts₀.bcast_S_S4096x1024 (scale lb v) (leftAt i k) scalarIx (fun a => a.elim0))

/-- The feature index in the untransposed [4096,1024] array that `right` reads at (k, column of i). -/
abbrev featAt (i : S4096x4096.Idx) (k : Fin 1024) : S4096x1024.Idx := fun a => match a with
  | ⟨0, _⟩ => ⟨(i 1).val, (i 1).isLt⟩
  | ⟨1, _⟩ => ⟨k.val, k.isLt⟩

/-- `right` is a transpose: at (k, m) it reads the concatenated features of y at (m, k). -/
theorem right_apply (i : S4096x4096.Idx) (k : Fin 1024) :
    right y f (rightAt i k)
      = concatenate S4096x1024 1 [⟨S4096x512, Host.cos (phases y f)⟩, ⟨S4096x512, Host.sin (phases y f)⟩]
          Facts₀.concatenates_S4096x512_S4096x512_S4096x1024_d1 (featAt i k) := by
  unfold right
  show transpose S1024x4096 [1, 0]
        (concatenate S4096x1024 1 [⟨S4096x512, Host.cos (phases y f)⟩, ⟨S4096x512, Host.sin (phases y f)⟩]
          Facts₀.concatenates_S4096x512_S4096x512_S4096x1024_d1)
        Facts₀.transposes_S4096x1024_S1024x4096_1_0 (rightAt i k) = _
  exact transpose_apply [1, 0] _ Facts₀.transposes_S4096x1024_S1024x4096_1_0 (rightAt i k) (featAt i k) (fun b => match b with
    | ⟨0, _⟩ => rfl
    | ⟨1, _⟩ => rfl)

/-- `right` at a position in its first half: the cosine feature of y. -/
theorem right_cos (i : S4096x4096.Idx) (l : Fin 512) (k : Fin 1024) (hk : k.val = l.val) :
    right y f (rightAt i k) = Host.cos (phases y f) (colAt i l) := by
  rw [right_apply]
  exact concatenate_pair_apply_left (s₁ := S4096x512) (s₂ := S4096x512) 1 _ _ _ (featAt i k) rfl (colAt i l) (fun b => match b with
    | ⟨0, _⟩ => rfl
    | ⟨1, _⟩ => hk.symm)

/-- `right` at a position in its second half: the sine feature of y. -/
theorem right_sin (i : S4096x4096.Idx) (l : Fin 512) (k : Fin 1024) (hk : l.val + 512 = k.val) :
    right y f (rightAt i k) = Host.sin (phases y f) (colAt i l) := by
  rw [right_apply]
  exact concatenate_pair_apply_right (s₁ := S4096x512) (s₂ := S4096x512) 1 _ _ _ (featAt i k) rfl rfl (colAt i l)
    (fun b hb => by
      match b with
      | ⟨0, _⟩ => rfl
      | ⟨1, _⟩ => exact absurd rfl hb)
    hk

/-- ENTRY `i = (n, m)` OF THE KERNEL'S RESULT: the cosine half plus the sine half, every left feature scaled. -/
theorem entry (i : S4096x4096.Idx) :
    product (left x f lb v) (right y f) i
      = (∑ l : Fin 512, ((mulf (Host.cos (phases x f)) (weightRows lb)) (rowAt i l) * scale lb v scalarIx)
            * Host.cos (phases y f) (colAt i l))
        + ∑ l : Fin 512, ((mulf (Host.sin (phases x f)) (weightRows lb)) (rowAt i l) * scale lb v scalarIx)
            * Host.sin (phases y f) (colAt i l) := by
  show ∑ k : Fin 1024, left x f lb v (leftAt i k) * right y f (rightAt i k) = _
  rw [SpectralSum.sum_halves]
  refine congrArg₂ (· + ·) (Finset.sum_congr rfl fun l _ => ?_) (Finset.sum_congr rfl fun l _ => ?_)
  · rw [left_cos x f lb v i l _ rfl, right_cos y f i l _ rfl]
  · rw [left_sin x f lb v i l _ rfl, right_sin y f i l _ rfl]

end Cert.KernelIdeal.KernelEntry

end
-- ==== Proof.ReferenceStages.lean ====
/-
  The reference, stage by stage, on real inputs.

  With every input entry a real number:
    the weights        w_l = exp (-1/2 * lb_l)           are POSITIVE reals;
    the phases         <f_l, x_n> and <f_l, y_m>         are reals (three products summed);
    the features       cos/sin of a phase, times w_l     are reals;
    |v|                                                  is a real;
    the sum of the 512 weights, from zero,               is a NONZERO real.
  And entry (n, m) of the reference's result is, reading its last operations at an index,
    ( |v| * ( sum_l (cos <f_l,x_n> * w_l) * cos <f_l,y_m>  +  sum_l (sin <f_l,x_n> * w_l) * sin <f_l,y_m> ) ) / sum of w.
-/
import proofs.«124725_j83786222010713_1_alg».proof.Proof.Gen.ReferenceIdeal.Read
import proofs.«124725_j83786222010713_1_alg».proof.Proof.LibRealValued

noncomputable section

namespace Cert.ReferenceIdeal.Stages

open Cert.ReferenceIdeal Cert.ReferenceIdeal.Read Idealize.ShloMosaic Cert.RealValued

/-- The word of the factor in the weights' exponent is the real number -1/2. -/
theorem neg_half : Ideal.ofBits .f32 0xBF000000#32 = ((-(1 / 2) : ℝ) : EReal) := by
  simp [Ideal.ofBits, Ideal.ieee, -EReal.coe_mul]; norm_num

variable (x y : (⟨S4096x3, .f32⟩ : BufTy).Contents (Elt Ideal)) (f : (⟨S512x3, .f32⟩ : BufTy).Contents (Elt Ideal))
  (lb : (⟨S512, .f32⟩ : BufTy).Contents (Elt Ideal)) (v : (⟨S1, .f32⟩ : BufTy).Contents (Elt Ideal))

/-- Each weight `exp (-1/2 * lb_l)` is a positive real. -/
theorem weight_pos (hlb : ∀ j, IsReal (lb j)) (j : S512.Idx) : IsPos (val_main_v2 (F := Ideal) lb j) := by
  rw [val_main_v2_apply, val_main_v1_apply, val_main_v0_apply, val_main_cst_apply]
  show IsPos (Ideal.exp (Ideal.ofBits .f32 0xBF000000#32 * lb j))
  exact (IsReal.mul ⟨_, neg_half⟩ (hlb j)).exp_pos

/-- Each phase of `x` is a real: three products of reals, summed. -/
theorem phase_x_real (hx : ∀ j, IsReal (x j)) (hf : ∀ j, IsReal (f j)) (j : S4096x512.Idx) :
    IsReal (val_main_v4 (F := Ideal) x f j) := by
  rw [val_main_v4_apply]
  exact isReal_sum _ _ fun k _ => (hx _).mul (by rw [val_main_v3_apply]; exact hf _)

/-- Each phase of `y` is a real. -/
theorem phase_y_real (hy : ∀ j, IsReal (y j)) (hf : ∀ j, IsReal (f j)) (j : S4096x512.Idx) :
    IsReal (val_main_v6 (F := Ideal) y f j) := by
  rw [val_main_v6_apply]
  exact isReal_sum _ _ fun k _ => (hy _).mul (by rw [val_main_v5_apply]; exact hf _)

/-- The weighted cosine features of `x` are reals. -/
theorem cos_x_real (hx : ∀ j, IsReal (x j)) (hf : ∀ j, IsReal (f j)) (hlb : ∀ j, IsReal (lb j)) (j : S4096x512.Idx) :
    IsReal (val_main_v10 (F := Ideal) x f lb j) := by
  rw [val_main_v10_apply, val_main_v7_apply, val_main_v9_apply, val_main_v8_apply]
  show IsReal (Ideal.cos (val_main_v4 (F := Ideal) x f j) * val_main_v2 (F := Ideal) lb _)
  exact (phase_x_real x f hx hf j).cos.mul (weight_pos lb hlb _).isReal

/-- The weighted sine features of `x` are reals. -/
theorem sin_x_real (hx : ∀ j, IsReal (x j)) (hf : ∀ j, IsReal (f j)) (hlb : ∀ j, IsReal (lb j)) (j : S4096x512.Idx) :
    IsReal (val_main_v17 (F := Ideal) x f lb j) := by
  rw [val_main_v17_apply, val_main_v14_apply, val_main_v16_apply, val_main_v15_apply]
  show IsReal (Ideal.sin (val_main_v4 (F := Ideal) x f j) * val_main_v2 (F := Ideal) lb _)
  exact (phase_x_real x f hx hf j).sin.mul (weight_pos lb hlb _).isReal

/-- The cosine features of `y` are reals. -/
theorem cos_y_real (hy : ∀ j, IsReal (y j)) (hf : ∀ j, IsReal (f j)) (j : S4096x512.Idx) :
    IsReal (val_main_v11 (F := Ideal) y f j) := by
  rw [val_main_v11_apply]
  show IsReal (Ideal.cos (val_main_v6 (F := Ideal) y f j))
  exact (phase_y_real y f hy hf j).cos

/-- The sine features of `y` are reals. -/
theorem sin_y_real (hy : ∀ j, IsReal (y j)) (hf : ∀ j, IsReal (f j)) (j : S4096x512.Idx) :
    IsReal (val_main_v18 (F := Ideal) y f j) := by
  rw [val_main_v18_apply]
  show IsReal (Ideal.sin (val_main_v6 (F := Ideal) y f j))
  exact (phase_y_real y f hy hf j).sin

/-- `|v|` is a real. -/
theorem abs_variance_real (hv : ∀ j, IsReal (v j)) (i : S_.Idx) : IsReal (val_main_v24 (F := Ideal) v i) := by
  rw [val_main_v24_apply]
  show IsReal (max (val_main_v23 (F := Ideal) v i) (-(val_main_v23 (F := Ideal) v i)))
  exact (show IsReal (val_main_v23 (F := Ideal) v i) from hv _).abs

instance : Nonempty S512.Idx := ⟨Shape.Idx.first (by decide : 0 < S512.numel)⟩

/-- The sum of the weights, from zero, is a NONZERO real: 512 positive terms. -/
theorem weight_sum_ne_zero (hlb : ∀ j, IsReal (lb j)) (i : S_.Idx) :
    ∃ s : ℝ, s ≠ 0 ∧ val_main_v22 (F := Ideal) lb i = (s : EReal) := by
  rw [val_main_v22_apply, val_main_cst_0_apply]
  show ∃ s : ℝ, s ≠ 0 ∧ Ideal.ofBits .f32 0x00000000#32 + ∑ j : S512.Idx, val_main_v2 (F := Ideal) lb j = (s : EReal)
  rw [Ideal.ofBits_zero_f32]
  exact zero_add_sum_pos _ (weight_pos lb hlb)

/-- ENTRY `i = (n, m)` OF THE REFERENCE'S RESULT: `|v|` times the two inner products' sum, over the weight sum. -/
theorem entry (i : S4096x4096.Idx) :
    val_main_v28 (F := Ideal) x y f lb v i
      = Ideal.div
          (val_main_v24 (F := Ideal) v (idx_main_v25 i)
            * ((∑ k : Fin 512, val_main_v10 (F := Ideal) x f lb (lidx_main_v13 i k)
                  * val_main_v11 (F := Ideal) y f (idx_main_v12 (ridx_main_v13 i k)))
              + ∑ k : Fin 512, val_main_v17 (F := Ideal) x f lb (lidx_main_v20 i k)
                  * val_main_v18 (F := Ideal) y f (idx_main_v19 (ridx_main_v20 i k))))
          (val_main_v22 (F := Ideal) lb (idx_main_v27 i)) := by
  rw [val_main_v28_apply, val_main_v26_apply, val_main_v27_apply, val_main_v25_apply, val_main_v21_apply,
    val_main_v13_apply, val_main_v20_apply]
  simp only [val_main_v12_apply, val_main_v19_apply]
  rfl

end Cert.ReferenceIdeal.Stages

end
-- ==== Proof.Bridge.lean ====
/-
  The two results are one function of the inputs.

  Both programs build the same intermediate arrays from the same inputs by the same operations: the
  weighted cosine and sine features of x, the cosine and sine features of y, |v|, and the sum of the
  weights. (The kernel's program and the reference's print them as separate but identical terms; that they
  are equal is immediate.) They differ only in what they do next:

    kernel     sum_l ((cos_x l) * (|v| / S)) * cos_y l  +  sum_l ((sin_x l) * (|v| / S)) * sin_y l
    reference  ( |v| * ( sum_l cos_x l * cos_y l  +  sum_l sin_x l * sin_y l ) ) / S

  where cos_x l = cos <f_l,x_n> * w_l and so on, and S is the sum of the weights. On real inputs every
  feature is a real, |v| is a real and S is a nonzero real, so the two are equal: a common real factor
  moves out of a finite sum of reals, and dividing by a nonzero real is multiplying by its reciprocal.
-/
import proofs.«124725_j83786222010713_1_alg».proof.Proof.KernelEntry
import proofs.«124725_j83786222010713_1_alg».proof.Proof.ReferenceStages

noncomputable section

namespace Cert.Bridge

open Idealize.ShloMosaic Cert.RealValued
open Cert.KernelIdeal.FeatureArrays Cert.KernelIdeal.ProductArray
open Cert.ReferenceIdeal.Read

variable (x y : FVec Ideal Cert.KernelIdeal.S4096x3 .f32) (f : FVec Ideal Cert.KernelIdeal.S512x3 .f32)
  (lb : FVec Ideal Cert.KernelIdeal.S512 .f32) (v : FVec Ideal Cert.KernelIdeal.S1 .f32)

/-! ## The shared intermediate arrays: the kernel's terms are the reference's stages -/

theorem cos_x_eq : mulf (Host.cos (phases x f)) (weightRows lb) = val_main_v10 (F := Ideal) x f lb := rfl
theorem sin_x_eq : mulf (Host.sin (phases x f)) (weightRows lb) = val_main_v17 (F := Ideal) x f lb := rfl
theorem cos_y_eq : Host.cos (phases y f) = val_main_v11 (F := Ideal) y f := rfl
theorem sin_y_eq : Host.sin (phases y f) = val_main_v18 (F := Ideal) y f := rfl

/-! ## The results -/

/-- THE KERNEL'S RESULT ARRAY IS THE REFERENCE'S, entry by entry, when every input entry is a real. -/
theorem result_eq (hx : ∀ j, IsReal (x j)) (hy : ∀ j, IsReal (y j)) (hf : ∀ j, IsReal (f j))
    (hlb : ∀ j, IsReal (lb j)) (hv : ∀ j, IsReal (v j)) :
    product (left x f lb v) (right y f) = val_main_v28 (F := Ideal) x y f lb v := by
  funext i
  rw [Cert.KernelIdeal.KernelEntry.entry x y f lb v i, Cert.ReferenceIdeal.Stages.entry x y f lb v i]
  rw [cos_x_eq, sin_x_eq, cos_y_eq, sin_y_eq]
  exact Cert.SpectralSum.scaled_sums_of_real (ι := Fin 512)
    (fun l => val_main_v10 (F := Ideal) x f lb (lidx_main_v13 i l))
    (fun l => val_main_v17 (F := Ideal) x f lb (lidx_main_v20 i l))
    (fun l => val_main_v11 (F := Ideal) y f (idx_main_v12 (ridx_main_v13 i l)))
    (fun l => val_main_v18 (F := Ideal) y f (idx_main_v19 (ridx_main_v20 i l)))
    (val_main_v24 (F := Ideal) v (idx_main_v25 i)) (val_main_v22 (F := Ideal) lb (idx_main_v27 i))
    (fun l => Cert.ReferenceIdeal.Stages.cos_x_real x f lb hx hf hlb _)
    (fun l => Cert.ReferenceIdeal.Stages.sin_x_real x f lb hx hf hlb _)
    (fun l => Cert.ReferenceIdeal.Stages.cos_y_real y f hy hf _)
    (fun l => Cert.ReferenceIdeal.Stages.sin_y_real y f hy hf _)
    (Cert.ReferenceIdeal.Stages.abs_variance_real v hv _)
    (Cert.ReferenceIdeal.Stages.weight_sum_ne_zero lb hlb _)

end Cert.Bridge

end
-- ==== Proof.lean ====
/-
  A spectral (eigenbasis-sum) kernel on 4096 + 4096 points in dimension 3, with 512 eigenspaces:

      k (x_n, y_m) = |v| / S * sum_l w_l * cos <f_l, x_n - y_m>,      w_l = exp (-1/2 * lb_l),   S = sum_l w_l,

  expanded by cos (a - b) = cos a cos b + sin a sin b into inner products of cosine and sine features.

  The reference takes the two inner products of length 512, adds them, multiplies by |v| and divides by S.
  The kernel lays the weighted cosine and sine features of x side by side into one array of 1024 columns,
  scales every entry by |v| / S, does the same (unweighted, unscaled, transposed) for y, narrows both to
  bf16, and takes ONE matrix product of inner length 1024, tiled in sixteen 1024-by-1024 blocks.

  On exact numbers narrowing is the identity, a tiled product is the product, and a sum over the 1024
  concatenated positions is the cosine half plus the sine half. What remains is that the scale may be
  applied to each feature before the sums or once after them. That is arithmetic of real numbers, so it is
  where the precondition is used: all inputs finite makes every feature a real, |v| a real, and S, a sum of
  512 exponentials, a NONZERO real.

  The three frame claims: both kernel programs by their generated frames; the reference, which launches no
  kernel, by its generated run with the result forgotten. The idealization rewrote nothing, so `preserves`
  has nothing to state.
-/
import proofs.«124725_j83786222010713_1_alg».proof.Defs
import proofs.«124725_j83786222010713_1_alg».proof.Proof.Gen.Kernel
import proofs.«124725_j83786222010713_1_alg».proof.Proof.Gen.Kernel.Skeleton
import proofs.«124725_j83786222010713_1_alg».proof.Proof.Gen.Kernel.Launch
import proofs.«124725_j83786222010713_1_alg».proof.Proof.Gen.Kernel.Points
import proofs.«124725_j83786222010713_1_alg».proof.Proof.Gen.Kernel.Frame
import proofs.«124725_j83786222010713_1_alg».proof.Proof.Gen.KernelIdeal
import proofs.«124725_j83786222010713_1_alg».proof.Proof.Gen.KernelIdeal.Skeleton
import proofs.«124725_j83786222010713_1_alg».proof.Proof.Gen.KernelIdeal.Launch
import proofs.«124725_j83786222010713_1_alg».proof.Proof.Gen.KernelIdeal.Points
import proofs.«124725_j83786222010713_1_alg».proof.Proof.Gen.KernelIdeal.Frame
import proofs.«124725_j83786222010713_1_alg».proof.Proof.Gen.ReferenceIdeal
import proofs.«124725_j83786222010713_1_alg».proof.Proof.Gen.Pre_finite_inputs
import proofs.«124725_j83786222010713_1_alg».proof.Proof.Gen.KernelIdeal.Value
import proofs.«124725_j83786222010713_1_alg».proof.Proof.Gen.ReferenceIdeal.Run
import proofs.«124725_j83786222010713_1_alg».proof.Proof.Gen.ReferenceIdeal.Read
import proofs.«124725_j83786222010713_1_alg».proof.Proof.FiniteInputs
import proofs.«124725_j83786222010713_1_alg».proof.Proof.FeatureArrays
import proofs.«124725_j83786222010713_1_alg».proof.Proof.ProductArray
import proofs.«124725_j83786222010713_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs to the end, faults nowhere and leaves its five inputs as they were. -/
theorem frame_kernel : Cert.frame_Kernel := fun m ρ _ => Cert.Kernel.Gen.frame m ρ

/-- So does the kernel read on exact numbers. -/
theorem frame_kernel_ideal : Cert.frame_KernelIdeal := fun m ρ _ => Cert.KernelIdeal.Gen.frame m ρ

/-- So does the reference: its run, with what it says about the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- On exact numbers, from memories that agree on the five inputs, both programs end with the same
    4096-by-4096 array: the kernel's array is the whole product of its two feature arrays (the sixteen
    blocks cover it), those arrays are the stated functions of the inputs, and that product is the
    reference's result entry by entry when the inputs are finite. -/
theorem algebraic : Cert.algebraic_KernelIdeal_ReferenceIdeal := by
  intro m ρ m' ρ' hpre hagree
  refine ⟨_, Cert.KernelIdeal.ProductArray.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hy, hf, hlb, hv⟩ := Cert.FiniteInputs.entries_real _ _ _ _ _ (hpre c)
  rw [Cert.ReferenceIdeal.Read.val_main_v28_eq, (hagree c).1, (hagree c).2.1, (hagree c).2.2.1, (hagree c).2.2.2.1,
    (hagree c).2.2.2.2]
  show _ = Cert.KernelIdeal.ProductArray.product (Cert.KernelIdeal.Gen.V m c Cert.KernelIdeal.main_v26)
    (Cert.KernelIdeal.Gen.V m c Cert.KernelIdeal.main_v27)
  rw [Cert.KernelIdeal.FeatureArrays.first_operand, Cert.KernelIdeal.FeatureArrays.second_operand]
  exact (Cert.Bridge.result_eq _ _ _ _ _ hx hy hf hlb hv).symm

/-- The certificate's claim: the three frames, the (empty) idealization record, and the equality of results. -/
theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
